-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x64x256x256 .f32) (main_arg1 : FVec F S512x256 .f32) (main_arg2 : FVec F S512 .f32) (main_arg3 : FVec F S128x512 .f32) (main_arg4 : FVec F S128 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S256x512 : Shape := ⟨2, ![256, 512]⟩
abbrev S512x128 : Shape := ⟨2, ![512, 128]⟩
abbrev S1x512 : Shape := ⟨2, ![1, 512]⟩
abbrev S1x128 : Shape := ⟨2, ![1, 128]⟩
abbrev S16x128x128x128 : Shape := ⟨4, ![16, 128, 128, 128]⟩
abbrev S1x64x32x256 : Shape := ⟨4, ![1, 64, 32, 256]⟩
abbrev S1x128x16x128 : Shape := ⟨4, ![1, 128, 16, 128]⟩
abbrev S64x32x256 : Shape := ⟨3, ![64, 32, 256]⟩
abbrev S64x16x2x128x2 : Shape := ⟨5, ![64, 16, 2, 128, 2]⟩
abbrev S16x128x64x2x2 : Shape := ⟨5, ![16, 128, 64, 2, 2]⟩
abbrev S2048x256 : Shape := ⟨2, ![2048, 256]⟩
abbrev S2048x64x4 : Shape := ⟨3, ![2048, 64, 4]⟩
abbrev S2048x64 : Shape := ⟨2, ![2048, 64]⟩
abbrev S2048x64x1 : Shape := ⟨3, ![2048, 64, 1]⟩
abbrev S2048x64x2 : Shape := ⟨3, ![2048, 64, 2]⟩
abbrev S2048x128 : Shape := ⟨2, ![2048, 128]⟩
abbrev S2048x512 : Shape := ⟨2, ![2048, 512]⟩
abbrev S16x128x128 : Shape := ⟨3, ![16, 128, 128]⟩
abbrev S128x16x128 : Shape := ⟨3, ![128, 16, 128]⟩

abbrev nBuf : Space → Nat
  | .hbm => 12
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S256x512, .f32⟩
  | .hbm, ⟨6, _⟩ => ⟨S256x512, .bf16⟩
  | .hbm, ⟨7, _⟩ => ⟨S512x128, .f32⟩
  | .hbm, ⟨8, _⟩ => ⟨S512x128, .bf16⟩
  | .hbm, ⟨9, _⟩ => ⟨S1x512, .f32⟩
  | .hbm, ⟨10, _⟩ => ⟨S1x128, .f32⟩
  | .hbm, ⟨11, _⟩ => ⟨S16x128x128x128, .f32⟩
  | .local _ .vmem, ⟨0, _⟩ => ⟨S1x64x32x256, .f32⟩
  | .local _ .vmem, ⟨1, _⟩ => ⟨S1x64x32x256, .f32⟩
  | .local _ .vmem, ⟨2, _⟩ => ⟨S256x512, .bf16⟩
  | .local _ .vmem, ⟨3, _⟩ => ⟨S1x512, .f32⟩
  | .local _ .vmem, ⟨4, _⟩ => ⟨S512x128, .bf16⟩
  | .local _ .vmem, ⟨5, _⟩ => ⟨S1x128, .f32⟩
  | .local _ .vmem, ⟨6, _⟩ => ⟨S1x128x16x128, .f32⟩
  | .local _ .vmem, ⟨7, _⟩ => ⟨S1x128x16x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S512x256_S256x512_1_0 : S512x256.Transposes [1, 0] S256x512
  bitsLt_bf16_f32 : FTy.bits .bf16 < FTy.bits .f32
  transposes_S128x512_S512x128_1_0 : S128x512.Transposes [1, 0] S512x128
  shapeCasts_S512_S1x512 : S512.ShapeCasts S1x512
  shapeCasts_S128_S1x128 : S128.ShapeCasts S1x128
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  shapeCasts_S64x32x256_S64x16x2x128x2 : S64x32x256.ShapeCasts S64x16x2x128x2
  transposes_S64x16x2x128x2_p1_3_0_2_4_S16x128x64x2x2 : S64x16x2x128x2.Transposes [1, 3, 0, 2, 4] S16x128x64x2x2
  shapeCasts_S16x128x64x2x2_S2048x256 : S16x128x64x2x2.ShapeCasts S2048x256
  shapeCasts_S2048x256_S2048x64x4 : S2048x256.ShapeCasts S2048x64x4
  reduces_S2048x64x4_S2048x64 : S2048x64x4.Reduces [2] S2048x64
  shapeCasts_S2048x64_S2048x64x1 : S2048x64.ShapeCasts S2048x64x1
  broadcasts_S2048x64x1_S2048x64x2 : S2048x64x1.Broadcasts S2048x64x2
  shapeCasts_S2048x64x2_S2048x128 : S2048x64x2.ShapeCasts S2048x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S16x128x128 : S2048x128.ShapeCasts S16x128x128
  transposes_S16x128x128_p2_0_1_S128x16x128 : S16x128x128.Transposes [2, 0, 1] S128x16x128
  inb_S1x128x16x128_S1x128x16x128_0_0_0_0 : ∀ a, (![0, 0, 0, 0] : Fin 4 → Nat) a + S1x128x16x128.size a ≤ S1x128x16x128.size a
  h_S1x128x16x128 : 0 < S1x128x16x128.numel
  shapeCasts_S1x128x16x128_S128x16x128 : S1x128x16x128.ShapeCasts S128x16x128
  shapeCasts_S128x16x128_S1x128x16x128 : S128x16x128.ShapeCasts S1x128x16x128
  dot_S2048x256_S256x512_S2048x512_1_0_0_1_n_n_wf : DotDims.WF S2048x256 S256x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x256.size a ≤ S16x64x256x256.size a
  hwx0_0 : ∀ i : grid0.Coords, EltTy.bits .f32 = 32 ∨ (Rect.block (s := S16x64x256x256) S1x64x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x16x128.size a ≤ S16x128x128x128.size a
  hwx0_5 : ∀ i : grid0.Coords, EltTy.bits .f32 = 32 ∨ (Rect.block (s := S16x128x128x128) S1x128x16x128.size (cc0_transform_5 i) (hinb0_5 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S512x256 : Shape := ⟨2, ![512, 256]⟩
abbrev S512 : Shape := ⟨1, ![512]⟩
abbrev S128x512 : Shape := ⟨2, ![128, 512]⟩
abbrev S128 : Shape := ⟨1, ![128]⟩
abbrev S16x64x128x2x128x2 : Shape := ⟨6, ![16, 64, 128, 2, 128, 2]⟩
abbrev S16x128x128x64x2x2 : Shape := ⟨6, ![16, 128, 128, 64, 2, 2]⟩
abbrev S262144x256 : Shape := ⟨2, ![262144, 256]⟩
abbrev S256x512 : Shape := ⟨2, ![256, 512]⟩
abbrev S262144x512 : Shape := ⟨2, ![262144, 512]⟩
abbrev S1x512 : Shape := ⟨2, ![1, 512]⟩
abbrev S_ : Shape := ⟨0, ![]⟩
abbrev S512x128 : Shape := ⟨2, ![512, 128]⟩
abbrev S262144x128 : Shape := ⟨2, ![262144, 128]⟩
abbrev S1x128 : Shape := ⟨2, ![1, 128]⟩
abbrev S16x128x128x128 : Shape := ⟨4, ![16, 128, 128, 128]⟩
abbrev S16x64x128x128 : Shape := ⟨4, ![16, 64, 128, 128]⟩
abbrev S16x64x2x128x128 : Shape := ⟨5, ![16, 64, 2, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S512x256, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S16x64x128x2x128x2, .f32⟩
  | .hbm, ⟨6, _⟩ => ⟨S16x128x128x64x2x2, .f32⟩
  | .hbm, ⟨7, _⟩ => ⟨S262144x256, .f32⟩
  | .hbm, ⟨8, _⟩ => ⟨S256x512, .f32⟩
  | .hbm, ⟨9, _⟩ => ⟨S262144x512, .f32⟩
  | .hbm, ⟨10, _⟩ => ⟨S1x512, .f32⟩
  | .hbm, ⟨11, _⟩ => ⟨S262144x512, .f32⟩
  | .hbm, ⟨12, _⟩ => ⟨S262144x512, .f32⟩
  | .hbm, ⟨13, _⟩ => ⟨S262144x512, .f32⟩
  | .hbm, ⟨14, _⟩ => ⟨S262144x512, .f32⟩
  | .hbm, ⟨15, _⟩ => ⟨S_, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S262144x512, .f32⟩
  | .hbm, ⟨20, _⟩ => ⟨S262144x512, .f32⟩
  | .hbm, ⟨21, _⟩ => ⟨S262144x512, .f32⟩
  | .hbm, ⟨22, _⟩ => ⟨S512x128, .f32⟩
  | .hbm, ⟨23, _⟩ => ⟨S262144x128, .f32⟩
  | .hbm, ⟨24, _⟩ => ⟨S1x128, .f32⟩
  | .hbm, ⟨25, _⟩ => ⟨S262144x128, .f32⟩
  | .hbm, ⟨26, _⟩ => ⟨S262144x128, .f32⟩
  | .hbm, ⟨27, _⟩ => ⟨S16x128x128x128, .f32⟩
  | .hbm, ⟨28, _⟩ => ⟨S16x128x128x128, .f32⟩
  | .hbm, ⟨29, _⟩ => ⟨S16x64x128x2x128x2, .f32⟩
  | .hbm, ⟨30, _⟩ => ⟨S_, .f32⟩
  | .hbm, ⟨31, _⟩ => ⟨S16x64x128x128, .f32⟩
  | .hbm, ⟨32, _⟩ => ⟨S_, .f32⟩
  | .hbm, ⟨33, _⟩ => ⟨S16x64x128x128, .f32⟩
  | .hbm, ⟨34, _⟩ => ⟨S16x64x128x128, .f32⟩
  | .hbm, ⟨35, _⟩ => ⟨S16x64x2x128x128, .f32⟩
  | .hbm, ⟨36, _⟩ => ⟨S16x128x128x128, .f32⟩
  | .hbm, ⟨37, _⟩ => ⟨S16x128x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S16x64x256x256_S16x64x128x2x128x2 : S16x64x256x256.ShapeCasts S16x64x128x2x128x2
  transposes_S16x64x128x2x128x2_S16x128x128x64x2x2_0_2_4_1_3_5 : S16x64x128x2x128x2.Transposes [0, 2, 4, 1, 3, 5] S16x128x128x64x2x2
  shapeCasts_S16x128x128x64x2x2_S262144x256 : S16x128x128x64x2x2.ShapeCasts S262144x256
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  transposes_S128x512_S512x128_1_0 : S128x512.Transposes [1, 0] S512x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S16x128x128x128 : S262144x128.ShapeCasts S16x128x128x128
  transposes_S16x128x128x128_S16x128x128x128_0_3_1_2 : S16x128x128x128.Transposes [0, 3, 1, 2] S16x128x128x128
  reducesTo_S16x64x128x2x128x2_S16x64x128x128_d3_5 : S16x64x128x2x128x2.ReducesTo [3, 5] S16x64x128x128
  h_S_ : 0 < S_.numel
  bcast_S_S16x64x128x128 : S_.BroadcastsInDim S16x64x128x128 (![] : Fin 0 → Fin S16x64x128x128.rank)
  bcast_S16x64x128x128_S16x64x2x128x128_0_1_3_4 : S16x64x128x128.BroadcastsInDim S16x64x2x128x128 (![0, 1, 3, 4] : Fin 4 → Fin S16x64x2x128x128.rank)
  shapeCasts_S16x64x2x128x128_S16x128x128x128 : S16x64x2x128x128.ShapeCasts S16x128x128x128
  dot_S262144x256_S256x512_S262144x512_1_0_0_1_n_n_wf : DotDims.WF S262144x256 S256x512 S262144x512 [1] [0] [0] [1] [] []
  dot_S262144x512_S512x128_S262144x128_1_0_0_1_n_n_wf : DotDims.WF S262144x512 S512x128 S262144x128 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf

class Facts : Prop extends Facts₀ where

variable [Facts]
-- ==== Proof.Spec.lean ====
/-
  The function both programs compute, on the extended reals, index by index.

  The image x : [16, 64, 256, 256] is cut into 2×2 patches. Output position (b, h, w), h w < 128, sees for each
  channel c < 64 the four entries x[b, c, 2h + s/2, 2w + s%2], s < 4: entry s of the patch (`patchAt`). The
  patch vector at (b, h, w) has length 256 = 64 · 4, its entry k = 4c + s being entry s of channel c
  (`patchVec`). A first affine layer with 512 outputs (weights w1 : [512, 256], bias b1 : [512]) is followed by
  SiLU, t ↦ t · logistic t (`act`), and a second affine layer with 128 outputs (weights w2 : [128, 512], bias
  b2 : [128]). To output channel oc is added the mean of the four patch entries of channel oc / 2 (`pooled`):
  the quotient of their sum by the constant four, whose binary word both programs carry unread.

      G x w1 b1 w2 b2 [b, oc, h, w]
        = ((∑ j < 512, act (b, h, w) j · w2[oc, j]) + b2[oc]) + pooled (b, oc / 2, h, w).

  Nothing here needs a finite input: the two programs differ in how they lay the same sums out, never in the
  grouping of a product with a sum.
-/
import Idealize.ShloMosaic.PureOps.Ideal
import Idealize.ShloMosaic.PureOps.Ideal.Laws
import Idealize.ShloMosaic.Lib.ValueIdx

noncomputable section

namespace Cert.PatchMlp

open Idealize.ShloMosaic Idealize.ShloMosaic.ValueIdx

/-- Entry `s` (row `s / 2`, column `s % 2`) of the 2×2 patch of channel `c` at position (h, w) of image `b`. -/
def patchAt (x : (⟨4, ![16, 64, 256, 256]⟩ : Shape).Idx → EReal) (b : Fin 16) (c : Fin 64) (h w : Fin 128) (s : Fin 4) : EReal :=
  x (ix4 b c (⟨2 * h.val + s.val / 2, by have := h.isLt; have := s.isLt; omega⟩ : Fin 256)
    (⟨2 * w.val + s.val % 2, by have := w.isLt; have := s.isLt; omega⟩ : Fin 256))

/-- The patch vector at (b, h, w): entry `k = 4c + s` is entry `s` of channel `c`'s patch. -/
def patchVec (x : (⟨4, ![16, 64, 256, 256]⟩ : Shape).Idx → EReal) (b : Fin 16) (h w : Fin 128) (k : Fin 256) : EReal :=
  patchAt x b (⟨k.val / 4, by have := k.isLt; omega⟩ : Fin 64) h w (⟨k.val % 4, by omega⟩ : Fin 4)

/-- The first affine layer at (b, h, w), output `j`. -/
def firstLayer (x : (⟨4, ![16, 64, 256, 256]⟩ : Shape).Idx → EReal) (w1 : (⟨2, ![512, 256]⟩ : Shape).Idx → EReal)
    (b1 : (⟨1, ![512]⟩ : Shape).Idx → EReal) (b : Fin 16) (h w : Fin 128) (j : Fin 512) : EReal :=
  (∑ k : Fin 256, patchVec x b h w k * w1 (ix2 j k)) + b1 (ix1 j)

/-- SiLU of the first layer: t · logistic t. -/
def act (x : (⟨4, ![16, 64, 256, 256]⟩ : Shape).Idx → EReal) (w1 : (⟨2, ![512, 256]⟩ : Shape).Idx → EReal)
    (b1 : (⟨1, ![512]⟩ : Shape).Idx → EReal) (b : Fin 16) (h w : Fin 128) (j : Fin 512) : EReal :=
  firstLayer x w1 b1 b h w j * Ideal.logistic (firstLayer x w1 b1 b h w j)

/-- The mean of channel `c`'s patch at (b, h, w): the four entries' sum over the word of four. -/
def pooled (x : (⟨4, ![16, 64, 256, 256]⟩ : Shape).Idx → EReal) (b : Fin 16) (c : Fin 64) (h w : Fin 128) : EReal :=
  Ideal.div (∑ s : Fin 4, patchAt x b c h w s) (Ideal.ofBits .f32 0x40800000#32)

/-- The second affine layer plus the pooled residual at (b, oc, h, w). -/
def outAt (x : (⟨4, ![16, 64, 256, 256]⟩ : Shape).Idx → EReal) (w1 : (⟨2, ![512, 256]⟩ : Shape).Idx → EReal)
    (b1 : (⟨1, ![512]⟩ : Shape).Idx → EReal) (w2 : (⟨2, ![128, 512]⟩ : Shape).Idx → EReal)
    (b2 : (⟨1, ![128]⟩ : Shape).Idx → EReal) (b : Fin 16) (oc : Fin 128) (h w : Fin 128) : EReal :=
  ((∑ j : Fin 512, act x w1 b1 b h w j * w2 (ix2 oc j)) + b2 (ix1 oc))
    + pooled x b (⟨oc.val / 2, by have := oc.isLt; omega⟩ : Fin 64) h w

/-- The same function of ONE output position's data, given as plain functions of their indices: the 64 patches
    `P c s`, the first layer's weights `W1 j k` and bias `B1 j`, the second layer's `W2 o j` and `B2 o`. The kernel
    computes this from its blocks and the reference from the whole arrays; `outAt` is it at the arrays' entries. -/
def core (P : Fin 64 → Fin 4 → EReal) (W1 : Fin 512 → Fin 256 → EReal) (B1 : Fin 512 → EReal)
    (W2 : Fin 128 → Fin 512 → EReal) (B2 : Fin 128 → EReal) (oc : Fin 128) : EReal :=
  ((∑ j : Fin 512,
      ((∑ k : Fin 256, P (⟨k.val / 4, by have := k.isLt; omega⟩ : Fin 64) (⟨k.val % 4, by omega⟩ : Fin 4) * W1 j k) + B1 j)
        * Ideal.logistic
            ((∑ k : Fin 256, P (⟨k.val / 4, by have := k.isLt; omega⟩ : Fin 64) (⟨k.val % 4, by omega⟩ : Fin 4) * W1 j k) + B1 j)
        * W2 oc j) + B2 oc)
    + Ideal.div (∑ s : Fin 4, P (⟨oc.val / 2, by have := oc.isLt; omega⟩ : Fin 64) s) (Ideal.ofBits .f32 0x40800000#32)

theorem outAt_eq_core (x : (⟨4, ![16, 64, 256, 256]⟩ : Shape).Idx → EReal) (w1 : (⟨2, ![512, 256]⟩ : Shape).Idx → EReal)
    (b1 : (⟨1, ![512]⟩ : Shape).Idx → EReal) (w2 : (⟨2, ![128, 512]⟩ : Shape).Idx → EReal)
    (b2 : (⟨1, ![128]⟩ : Shape).Idx → EReal) (b : Fin 16) (oc : Fin 128) (h w : Fin 128) :
    outAt x w1 b1 w2 b2 b oc h w
      = core (fun c s => patchAt x b c h w s) (fun j k => w1 (ix2 j k)) (fun j => b1 (ix1 j))
          (fun o j => w2 (ix2 o j)) (fun o => b2 (ix1 o)) oc := rfl

/-- `core` depends on its data only through their values. -/
theorem core_congr {P P' : Fin 64 → Fin 4 → EReal} {W1 W1' : Fin 512 → Fin 256 → EReal} {B1 B1' : Fin 512 → EReal}
    {W2 W2' : Fin 128 → Fin 512 → EReal} {B2 B2' : Fin 128 → EReal} (oc : Fin 128)
    (hP : ∀ c s, P c s = P' c s) (hW1 : ∀ j k, W1 j k = W1' j k) (hB1 : ∀ j, B1 j = B1' j)
    (hW2 : ∀ j, W2 oc j = W2' oc j) (hB2 : B2 oc = B2' oc) :
    core P W1 B1 W2 B2 oc = core P' W1' B1' W2' B2' oc := by
  have eP : P = P' := funext fun c => funext fun s => hP c s
  have eW1 : W1 = W1' := funext fun j => funext fun k => hW1 j k
  have eB1 : B1 = B1' := funext hB1
  subst eP eW1 eB1
  unfold core
  rw [hB2]
  refine congrArg (fun q => q + B2' oc + _) (Finset.sum_congr rfl fun j _ => ?_)
  rw [hW2 j]

/-- The whole result array. -/
def G (x : (⟨4, ![16, 64, 256, 256]⟩ : Shape).Idx → EReal) (w1 : (⟨2, ![512, 256]⟩ : Shape).Idx → EReal)
    (b1 : (⟨1, ![512]⟩ : Shape).Idx → EReal) (w2 : (⟨2, ![128, 512]⟩ : Shape).Idx → EReal)
    (b2 : (⟨1, ![128]⟩ : Shape).Idx → EReal) : (⟨4, ![16, 128, 128, 128]⟩ : Shape).Idx → EReal :=
  fun i => outAt x w1 b1 w2 b2 (i 0) (i 1) (i 2) (i 3)

theorem G_apply (x : (⟨4, ![16, 64, 256, 256]⟩ : Shape).Idx → EReal) (w1 : (⟨2, ![512, 256]⟩ : Shape).Idx → EReal)
    (b1 : (⟨1, ![512]⟩ : Shape).Idx → EReal) (w2 : (⟨2, ![128, 512]⟩ : Shape).Idx → EReal)
    (b2 : (⟨1, ![128]⟩ : Shape).Idx → EReal) (b : Fin 16) (oc : Fin 128) (h w : Fin 128) :
    G x w1 b1 w2 b2 (ix4 b oc h w) = outAt x w1 b1 w2 b2 b oc h w := rfl

end Cert.PatchMlp

end
-- ==== Proof.RefValue.lean ====
/-
  The reference program's result array is `Cert.PatchMlp.G` of its arguments, index by index.

  Reading the reference from its last operation back, at output index (b, oc, h, w):
  • the transposed second layer reads row r = (b·128 + h)·128 + w, column oc, of a [262144, 128] matrix:
    the sum over j < 512 of the activation at (r, j) times w2[oc, j], plus b2[oc];
  • the activation at (r, j) is t · (1 / (1 + exp (−t))) with t the first layer at (r, j), and
    1 / (1 + exp (−t)) is the logistic function by its definition on the extended reals;
  • the first layer at (r, j) is the sum over k < 256 of the patch matrix at (r, k) times w1[j, k], plus b1[j];
  • the patch matrix at (r, k), k = (c·2 + s1)·2 + s2, is x[b, c, 2h + s1, 2w + s2]: a reshape to rank six,
    a transpose, and a reshape to rank two, each keeping the row-major position;
  • the residual at (b, oc, h, w) is the pooled mean at (b, oc / 2, h, w): the sum over the two patch axes
    of the rank-six reshape of x, which is the sum over s < 4 of x[b, c, 2h + s/2, 2w + s%2], over four.
-/
import proofs.«164744_j14516989460759_2_alg».proof.Proof.Gen.ReferenceIdeal.Read
import proofs.«164744_j14516989460759_2_alg».proof.Proof.Spec
import Idealize.ShloMosaic.Lib.ValueIdxRank6
import Idealize.ShloMosaic.Lib.IdealHost

noncomputable section

namespace Cert.ReferenceIdeal.RefValue

open Cert.ReferenceIdeal Cert.ReferenceIdeal.Gen Cert.ReferenceIdeal.Read Cert.PatchMlp
open Idealize.ShloMosaic Idealize.ShloMosaic.ValueIdx

/-! ## The image cut into patches -/

/-- The rank-six reshape of the image at (b, c, h, s1, w, s2) is x[b, c, 2h + s1, 2w + s2]: rows 2h and 2h + 1,
    columns 2w and 2w + 1, are patch (h, w). -/
theorem split_apply (x0 : (⟨S16x64x256x256, .f32⟩ : BufTy).Contents (Elt Ideal)) (b : Fin 16) (c : Fin 64) (h : Fin 128)
    (s1 : Fin 2) (w : Fin 128) (s2 : Fin 2) :
    val_main_v0 (F := Ideal) x0 (ix6 b c h s1 w s2)
      = x0 (ix4 b c (⟨2 * h.val + s1.val, by have := h.isLt; have := s1.isLt; omega⟩ : Fin 256)
          (⟨2 * w.val + s2.val, by have := w.isLt; have := s2.isLt; omega⟩ : Fin 256)) := by
  unfold val_main_v0
  refine shapeCast_apply x0 _ _ _ ?_
  rw [Shape.rowMajor_val_four, Shape.rowMajor_val_six]
  show ((b.val * 64 + c.val) * 256 + (2 * h.val + s1.val)) * 256 + (2 * w.val + s2.val)
    = ((((b.val * 64 + c.val) * 128 + h.val) * 2 + s1.val) * 128 + w.val) * 2 + s2.val
  omega

/-- The patch matrix at row r = (b·128 + h)·128 + w, column k, is entry k of the patch vector at (b, h, w). -/
theorem patches_apply (x0 : (⟨S16x64x256x256, .f32⟩ : BufTy).Contents (Elt Ideal)) (b : Fin 16) (h w : Fin 128)
    (r : Fin 262144) (hr : r.val = (b.val * 128 + h.val) * 128 + w.val) (k : Fin 256) :
    val_main_v2 (F := Ideal) x0 (ix2 r k) = patchVec x0 b h w k := by
  unfold val_main_v2
  refine (shapeCast_apply _ _ (ix2 r k) (ix6 b h w (⟨k.val / 4, by have := k.isLt; omega⟩ : Fin 64)
    (⟨k.val % 4 / 2, by omega⟩ : Fin 2) (⟨k.val % 4 % 2, by omega⟩ : Fin 2)) ?_).trans ?_
  · rw [Shape.rowMajor_val_six, Shape.rowMajor_val_two]
    show ((((b.val * 128 + h.val) * 128 + w.val) * 64 + k.val / 4) * 2 + k.val % 4 / 2) * 2 + k.val % 4 % 2
      = r.val * 256 + k.val
    omega
  · rw [val_main_v1_apply]
    have e : idx_main_v1 (ix6 b h w (⟨k.val / 4, by have := k.isLt; omega⟩ : Fin 64)
        (⟨k.val % 4 / 2, by omega⟩ : Fin 2) (⟨k.val % 4 % 2, by omega⟩ : Fin 2))
        = ix6 b (⟨k.val / 4, by have := k.isLt; omega⟩ : Fin 64) h (⟨k.val % 4 / 2, by omega⟩ : Fin 2) w
          (⟨k.val % 4 % 2, by omega⟩ : Fin 2) :=
      funext fun a => by
        match a with
        | ⟨0, _⟩ => rfl
        | ⟨1, _⟩ => rfl
        | ⟨2, _⟩ => rfl
        | ⟨3, _⟩ => rfl
        | ⟨4, _⟩ => rfl
        | ⟨5, _⟩ => rfl
    rw [e, split_apply]
    rfl

/-! ## The pooled sum over the two patch axes -/

/-- An index of the rank-six reshape that keeps (b, c, h, w) on its four kept axes is (b, c, h, ·, w, ·). -/
theorem eq_of_drop (a : S16x64x128x2x128x2.Idx) (b : Fin 16) (c : Fin 64) (h w : Fin 128)
    (hd : reducesTo_S16x64x128x2x128x2_S16x64x128x128_d3_5.drop a = ix4 b c h w) :
    a = ix6 b c h (⟨(a 3).val, (a 3).isLt⟩ : Fin 2) w (⟨(a 5).val, (a 5).isLt⟩ : Fin 2) := by
  funext g
  apply Fin.ext
  match g with
  | ⟨0, _⟩ =>
    exact (Shape.ReducesTo.drop_apply_val_of_eq reducesTo_S16x64x128x2x128x2_S16x64x128x128_d3_5 a 0 0).symm.trans
      (congrArg (fun q : S16x64x128x128.Idx => (q 0).val) hd)
  | ⟨1, _⟩ =>
    exact (Shape.ReducesTo.drop_apply_val_of_eq reducesTo_S16x64x128x2x128x2_S16x64x128x128_d3_5 a 1 1).symm.trans
      (congrArg (fun q : S16x64x128x128.Idx => (q 1).val) hd)
  | ⟨2, _⟩ =>
    exact (Shape.ReducesTo.drop_apply_val_of_eq reducesTo_S16x64x128x2x128x2_S16x64x128x128_d3_5 a 2 2).symm.trans
      (congrArg (fun q : S16x64x128x128.Idx => (q 2).val) hd)
  | ⟨3, _⟩ => rfl
  | ⟨4, _⟩ =>
    exact (Shape.ReducesTo.drop_apply_val_of_eq reducesTo_S16x64x128x2x128x2_S16x64x128x128_d3_5 a 3 4).symm.trans
      (congrArg (fun q : S16x64x128x128.Idx => (q 3).val) hd)
  | ⟨5, _⟩ => rfl

/-- (b, c, h, s1, w, s2) keeps (b, c, h, w). -/
theorem drop_ix6 (b : Fin 16) (c : Fin 64) (h : Fin 128) (s1 : Fin 2) (w : Fin 128) (s2 : Fin 2) :
    reducesTo_S16x64x128x2x128x2_S16x64x128x128_d3_5.drop (ix6 b c h s1 w s2) = ix4 b c h w := by
  funext g
  apply Fin.ext
  match g with
  | ⟨0, _⟩ => exact Shape.ReducesTo.drop_apply_val_of_eq reducesTo_S16x64x128x2x128x2_S16x64x128x128_d3_5 (ix6 b c h s1 w s2) 0 0
  | ⟨1, _⟩ => exact Shape.ReducesTo.drop_apply_val_of_eq reducesTo_S16x64x128x2x128x2_S16x64x128x128_d3_5 (ix6 b c h s1 w s2) 1 1
  | ⟨2, _⟩ => exact Shape.ReducesTo.drop_apply_val_of_eq reducesTo_S16x64x128x2x128x2_S16x64x128x128_d3_5 (ix6 b c h s1 w s2) 2 2
  | ⟨3, _⟩ => exact Shape.ReducesTo.drop_apply_val_of_eq reducesTo_S16x64x128x2x128x2_S16x64x128x128_d3_5 (ix6 b c h s1 w s2) 3 4

/-- The sum over the two patch axes at (b, c, h, w): the initial word plus the four patch entries, entry s at
    row s / 2 and column s % 2. -/
theorem pool_sum (x0 : (⟨S16x64x256x256, .f32⟩ : BufTy).Contents (Elt Ideal)) (b : Fin 16) (c : Fin 64) (h w : Fin 128) :
    val_main_v23 (F := Ideal) x0 (ix4 b c h w)
      = Ideal.ofBits .f32 0x00000000#32 + ∑ s : Fin 4, patchAt x0 b c h w s := by
  unfold val_main_v23
  rw [hostReduceAdd_apply]
  unfold Ideal.hostReduceAdd
  refine congrArg₂ (· + ·) rfl ?_
  refine Finset.sum_nbij'
    (fun a => (⟨(a 3).val * 2 + (a 5).val, by
      have h3 : (a 3).val < 2 := (a 3).isLt
      have h5 : (a 5).val < 2 := (a 5).isLt
      omega⟩ : Fin 4))
    (fun s => ix6 b c h (⟨s.val / 2, by have := s.isLt; omega⟩ : Fin 2) w (⟨s.val % 2, by omega⟩ : Fin 2))
    ?_ ?_ ?_ ?_ ?_
  · intro a _; exact Finset.mem_univ _
  · intro s _; exact Finset.mem_filter.2 ⟨Finset.mem_univ _, drop_ix6 b c h _ w _⟩
  · intro a ha
    have hd := (Finset.mem_filter.1 ha).2
    have h3 : (a 3).val < 2 := (a 3).isLt
    have h5 : (a 5).val < 2 := (a 5).isLt
    refine Eq.trans ?_ (eq_of_drop a b c h w hd).symm
    funext g
    apply Fin.ext
    match g with
    | ⟨0, _⟩ => rfl
    | ⟨1, _⟩ => rfl
    | ⟨2, _⟩ => rfl
    | ⟨3, _⟩ => show ((a 3).val * 2 + (a 5).val) / 2 = (a 3).val; omega
    | ⟨4, _⟩ => rfl
    | ⟨5, _⟩ => show ((a 3).val * 2 + (a 5).val) % 2 = (a 5).val; omega
  · intro s _
    apply Fin.ext
    show s.val / 2 * 2 + s.val % 2 = s.val
    omega
  · intro a ha
    have hd := (Finset.mem_filter.1 ha).2
    have h3 : (a 3).val < 2 := (a 3).isLt
    have h5 : (a 5).val < 2 := (a 5).isLt
    rw [eq_of_drop a b c h w hd]
    show val_main_v0 (F := Ideal) x0 _ = _
    rw [split_apply]
    unfold patchAt
    refine congrArg x0 (funext fun g => Fin.ext ?_)
    match g with
    | ⟨0, _⟩ => rfl
    | ⟨1, _⟩ => rfl
    | ⟨2, _⟩ => show 2 * h.val + (a 3).val = 2 * h.val + ((a 3).val * 2 + (a 5).val) / 2; omega
    | ⟨3, _⟩ => show 2 * w.val + (a 5).val = 2 * w.val + ((a 3).val * 2 + (a 5).val) % 2; omega

/-! ## The two layers -/

/-- The first layer at row r = (b·128 + h)·128 + w, column j. -/
theorem firstLayer_apply (x0 : (⟨S16x64x256x256, .f32⟩ : BufTy).Contents (Elt Ideal)) (x1 : (⟨S512x256, .f32⟩ : BufTy).Contents (Elt Ideal))
    (x2 : (⟨S512, .f32⟩ : BufTy).Contents (Elt Ideal)) (b : Fin 16) (h w : Fin 128)
    (r : Fin 262144) (hr : r.val = (b.val * 128 + h.val) * 128 + w.val) (j : Fin 512) :
    val_main_v7 (F := Ideal) x0 x1 x2 (ix2 r j) = firstLayer x0 x1 x2 b h w j := by
  rw [val_main_v7_apply, val_main_v4_apply, val_main_v6_apply, val_main_v5_apply]
  unfold firstLayer
  refine congrArg₂ (· + ·) (Finset.sum_congr rfl fun k _ => ?_) ?_
  · have el : lidx_main_v4 (ix2 r j) k = ix2 r k := funext fun a => by
      match a with
      | ⟨0, _⟩ => rfl
      | ⟨1, _⟩ => rfl
    have er : ridx_main_v4 (ix2 r j) k = ix2 k j := funext fun a => by
      match a with
      | ⟨0, _⟩ => rfl
      | ⟨1, _⟩ => rfl
    rw [el, er, patches_apply x0 b h w r hr k, val_main_v3_apply]
    refine congrArg (fun q => patchVec x0 b h w k * x1 q) (funext fun a => ?_)
    match a with
    | ⟨0, _⟩ => rfl
    | ⟨1, _⟩ => rfl
  · refine congrArg x2 (funext fun a => ?_)
    match a with
    | ⟨0, _⟩ => rfl

/-- SiLU of the first layer: the reference's 1 / (1 + exp (−t)) is the logistic function. -/
theorem act_apply (x0 : (⟨S16x64x256x256, .f32⟩ : BufTy).Contents (Elt Ideal)) (x1 : (⟨S512x256, .f32⟩ : BufTy).Contents (Elt Ideal))
    (x2 : (⟨S512, .f32⟩ : BufTy).Contents (Elt Ideal)) (b : Fin 16) (h w : Fin 128)
    (r : Fin 262144) (hr : r.val = (b.val * 128 + h.val) * 128 + w.val) (j : Fin 512) :
    val_main_v14 (F := Ideal) x0 x1 x2 (ix2 r j) = act x0 x1 x2 b h w j := by
  rw [val_main_v14_apply, val_main_v13_apply, val_main_v12_apply, val_main_cst_0_apply, val_main_v11_apply,
    val_main_v10_apply, val_main_cst_apply, val_main_v9_apply, val_main_v8_apply, firstLayer_apply x0 x1 x2 b h w r hr j]
  unfold act
  show firstLayer x0 x1 x2 b h w j * Ideal.div (Ideal.ofBits .f32 0x3F800000#32)
      (Ideal.ofBits .f32 0x3F800000#32 + Ideal.exp (-(firstLayer x0 x1 x2 b h w j))) = _
  rw [Ideal.ofBits_one_f32]
  rfl

/-- The second layer at row r, column oc. -/
theorem dense_apply (x0 : (⟨S16x64x256x256, .f32⟩ : BufTy).Contents (Elt Ideal)) (x1 : (⟨S512x256, .f32⟩ : BufTy).Contents (Elt Ideal))
    (x2 : (⟨S512, .f32⟩ : BufTy).Contents (Elt Ideal)) (x3 : (⟨S128x512, .f32⟩ : BufTy).Contents (Elt Ideal))
    (x4 : (⟨S128, .f32⟩ : BufTy).Contents (Elt Ideal)) (b : Fin 16) (h w : Fin 128)
    (r : Fin 262144) (hr : r.val = (b.val * 128 + h.val) * 128 + w.val) (oc : Fin 128) :
    val_main_v19 (F := Ideal) x0 x1 x2 x3 x4 (ix2 r oc)
      = (∑ j : Fin 512, act x0 x1 x2 b h w j * x3 (ix2 oc j)) + x4 (ix1 oc) := by
  rw [val_main_v19_apply, val_main_v16_apply, val_main_v18_apply, val_main_v17_apply]
  refine congrArg₂ (· + ·) (Finset.sum_congr rfl fun j _ => ?_) ?_
  · have el : lidx_main_v16 (ix2 r oc) j = ix2 r j := funext fun a => by
      match a with
      | ⟨0, _⟩ => rfl
      | ⟨1, _⟩ => rfl
    have er : ridx_main_v16 (ix2 r oc) j = ix2 j oc := funext fun a => by
      match a with
      | ⟨0, _⟩ => rfl
      | ⟨1, _⟩ => rfl
    rw [el, er, act_apply x0 x1 x2 b h w r hr j, val_main_v15_apply]
    refine congrArg (fun q => act x0 x1 x2 b h w j * x3 q) (funext fun a => ?_)
    match a with
    | ⟨0, _⟩ => rfl
    | ⟨1, _⟩ => rfl
  · refine congrArg x4 (funext fun a => ?_)
    match a with
    | ⟨0, _⟩ => rfl

/-! ## The residual and the whole array -/

/-- The residual at (b, oc, h, w) is the pooled mean of channel oc / 2. -/
theorem resid_apply (x0 : (⟨S16x64x256x256, .f32⟩ : BufTy).Contents (Elt Ideal)) (b : Fin 16) (oc : Fin 128) (h w : Fin 128) :
    val_main_v27 (F := Ideal) x0 (ix4 b oc h w)
      = pooled x0 b (⟨oc.val / 2, by have := oc.isLt; omega⟩ : Fin 64) h w := by
  rw [val_main_v27_apply, val_main_v26_apply, val_main_v25_apply, val_main_v24_apply, val_main_cst_2_apply]
  have e : idx_main_v26 (idx_main_v27 (ix4 b oc h w)) = ix4 b (⟨oc.val / 2, by have := oc.isLt; omega⟩ : Fin 64) h w :=
    funext fun a => Fin.ext (by
      have hb := b.isLt
      have hoc := oc.isLt
      have hh := h.isLt
      have hw := w.isLt
      match a with
      | ⟨0, _⟩ => show (((b.val * 128 + oc.val) * 128 + h.val) * 128 + w.val) / 2097152 = b.val; omega
      | ⟨1, _⟩ => show (((b.val * 128 + oc.val) * 128 + h.val) * 128 + w.val) / 32768 % 64 = oc.val / 2; omega
      | ⟨2, _⟩ => show (((b.val * 128 + oc.val) * 128 + h.val) * 128 + w.val) / 128 % 128 = h.val; omega
      | ⟨3, _⟩ => show (((b.val * 128 + oc.val) * 128 + h.val) * 128 + w.val) % 128 = w.val; omega)
  rw [e, pool_sum]
  unfold pooled
  show Ideal.div (Ideal.ofBits .f32 0x00000000#32 + _) (Ideal.ofBits .f32 0x40800000#32) = _
  rw [Ideal.ofBits_zero_f32, zero_add]

/-- THE REFERENCE'S RESULT is `G` of its arguments. -/
theorem result_eq (x0 : (⟨S16x64x256x256, .f32⟩ : BufTy).Contents (Elt Ideal)) (x1 : (⟨S512x256, .f32⟩ : BufTy).Contents (Elt Ideal))
    (x2 : (⟨S512, .f32⟩ : BufTy).Contents (Elt Ideal)) (x3 : (⟨S128x512, .f32⟩ : BufTy).Contents (Elt Ideal))
    (x4 : (⟨S128, .f32⟩ : BufTy).Contents (Elt Ideal)) :
    val_main_v28 (F := Ideal) x0 x1 x2 x3 x4 = G x0 x1 x2 x3 x4 := by
  funext i
  obtain ⟨b, oc, h, w, rfl⟩ : ∃ (b : Fin 16) (oc : Fin 128) (h : Fin 128) (w : Fin 128), i = ix4 b oc h w :=
    ⟨i 0, i 1, i 2, i 3, eq_ix4 i⟩
  rw [G_apply, val_main_v28_apply, val_main_v21_apply, val_main_v20_apply, resid_apply]
  have e : idx_main_v20 (idx_main_v21 (ix4 b oc h w))
      = ix2 (⟨(b.val * 128 + h.val) * 128 + w.val, by have := b.isLt; have := h.isLt; have := w.isLt; omega⟩ : Fin 262144) oc :=
    funext fun a => Fin.ext (by
      have hb := b.isLt
      have hoc := oc.isLt
      have hh := h.isLt
      have hw := w.isLt
      match a with
      | ⟨0, _⟩ => show (((b.val * 128 + h.val) * 128 + w.val) * 128 + oc.val) / 128 = (b.val * 128 + h.val) * 128 + w.val; omega
      | ⟨1, _⟩ => show (((b.val * 128 + h.val) * 128 + w.val) * 128 + oc.val) % 128 = oc.val; omega)
  rw [e, dense_apply x0 x1 x2 x3 x4 b h w _ rfl oc]
  rfl

end Cert.ReferenceIdeal.RefValue

end
-- ==== Proof.KernelPayload.lean ====
/-
  What the kernel body stores, at one index of its output block, as `Cert.PatchMlp.core` of its input blocks.

  The body sees a strip of 32 image rows, x0 : [1, 64, 32, 256], and lays it out as a patch matrix of 2048 rows
  (hl, w), hl < 16, w < 128, and 256 columns (c, s1, s2): entry x0[0, c, 2hl + s1, 2w + s2] (`patchRows`). The
  first layer is that matrix times the [256, 512] weights plus a bias row, SiLU is applied entry by entry, the
  second layer is a product with the [512, 128] weights plus a bias row (`firstRows`, `secondRows`). The pooled
  residual regroups the patch matrix as [2048, 64, 4], sums the last axis, divides by four and repeats each
  channel twice (`pooledRows`): column oc reads channel oc / 2. The [2048, 128] result, row hl·128 + w, is
  stored as the [1, 128, 16, 128] block at (0, oc, hl, w) (`blockOf`).
-/
import proofs.«164744_j14516989460759_2_alg».proof.Proof.Gen.KernelIdeal.Skeleton
import proofs.«164744_j14516989460759_2_alg».proof.Proof.Spec
import Idealize.ShloMosaic.Lib.ValueLayout
import Idealize.ShloMosaic.PureOps.Ideal.Laws

noncomputable section

namespace Cert.KernelIdeal.Body

open Cert.KernelIdeal Cert.KernelIdeal.Gen Cert.PatchMlp
open Idealize.ShloMosaic Idealize.ShloMosaic.ValueIdx

/-! ## The two matrix products -/

theorem lhsA_0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhsA_1 (i : S2048x512.Idx) (q : dot_S2048x256_S256x512_S2048x512_1_0_0_1_n_n.contr.Idx) : (dot_S2048x256_S256x512_S2048x512_1_0_0_1_n_n.lhsIdx i q 1).val = (q ⟨0, by decide⟩).val :=
  dot_S2048x256_S256x512_S2048x512_1_0_0_1_n_n.lhsIdx_val_of_single rfl i q
theorem rhsA_0 (i : S2048x512.Idx) (q : dot_S2048x256_S256x512_S2048x512_1_0_0_1_n_n.contr.Idx) : (dot_S2048x256_S256x512_S2048x512_1_0_0_1_n_n.rhsIdx i q 0).val = (q ⟨0, by decide⟩).val :=
  dot_S2048x256_S256x512_S2048x512_1_0_0_1_n_n.rhsIdx_val_of_single rfl i q
theorem rhsA_1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The matrix product into a zero accumulator at (r, n): the sum over the contracted index of row r times column n. -/
theorem matmulA_apply (lhs : FVec Ideal S2048x256 .bf16) (rhs : FVec Ideal S256x512 .bf16) (r : Fin 2048) (n : Fin 512) :
    matmul dot_S2048x256_S256x512_S2048x512_1_0_0_1_n_n none lhs rhs (constant S2048x512 .f32 0x00000000#32) (ix2 r n)
      = ∑ k : Fin 256, lhs (ix2 r k) * rhs (ix2 k n) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r n) ((contrEquiv1 dot_S2048x256_S256x512_S2048x512_1_0_0_1_n_n 256 rfl rfl).symm k) = ix2 r k := funext fun a => Fin.ext (by
    match a with
    | ⟨0, _⟩ => exact lhsA_0 _ _
    | ⟨1, _⟩ => exact (lhsA_1 _ _).trans hk)
  have er : dot_S2048x256_S256x512_S2048x512_1_0_0_1_n_n.rhsIdx (ix2 r n) ((contrEquiv1 dot_S2048x256_S256x512_S2048x512_1_0_0_1_n_n 256 rfl rfl).symm k) = ix2 k n := funext fun a => Fin.ext (by
    match a with
    | ⟨0, _⟩ => exact (rhsA_0 _ _).trans hk
    | ⟨1, _⟩ => exact rhsA_1 _ _)
  rw [el, er]

theorem lhsB_0 (i : S2048x128.Idx) (q : dot_S2048x512_S512x128_S2048x128_1_0_0_1_n_n.contr.Idx) : (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhsB_1 (i : S2048x128.Idx) (q : dot_S2048x512_S512x128_S2048x128_1_0_0_1_n_n.contr.Idx) : (dot_S2048x512_S512x128_S2048x128_1_0_0_1_n_n.lhsIdx i q 1).val = (q ⟨0, by decide⟩).val :=
  dot_S2048x512_S512x128_S2048x128_1_0_0_1_n_n.lhsIdx_val_of_single rfl i q
theorem rhsB_0 (i : S2048x128.Idx) (q : dot_S2048x512_S512x128_S2048x128_1_0_0_1_n_n.contr.Idx) : (dot_S2048x512_S512x128_S2048x128_1_0_0_1_n_n.rhsIdx i q 0).val = (q ⟨0, by decide⟩).val :=
  dot_S2048x512_S512x128_S2048x128_1_0_0_1_n_n.rhsIdx_val_of_single rfl i q
theorem rhsB_1 (i : S2048x128.Idx) (q : dot_S2048x512_S512x128_S2048x128_1_0_0_1_n_n.contr.Idx) : (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The matrix product into a zero accumulator at (r, n): the sum over the contracted index of row r times column n. -/
theorem matmulB_apply (lhs : FVec Ideal S2048x512 .bf16) (rhs : FVec Ideal S512x128 .bf16) (r : Fin 2048) (n : Fin 128) :
    matmul dot_S2048x512_S512x128_S2048x128_1_0_0_1_n_n none lhs rhs (constant S2048x128 .f32 0x00000000#32) (ix2 r n)
      = ∑ k : Fin 512, lhs (ix2 r k) * rhs (ix2 k n) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r n) ((contrEquiv1 dot_S2048x512_S512x128_S2048x128_1_0_0_1_n_n 512 rfl rfl).symm k) = ix2 r k := funext fun a => Fin.ext (by
    match a with
    | ⟨0, _⟩ => exact lhsB_0 _ _
    | ⟨1, _⟩ => exact (lhsB_1 _ _).trans hk)
  have er : dot_S2048x512_S512x128_S2048x128_1_0_0_1_n_n.rhsIdx (ix2 r n) ((contrEquiv1 dot_S2048x512_S512x128_S2048x128_1_0_0_1_n_n 512 rfl rfl).symm k) = ix2 k n := funext fun a => Fin.ext (by
    match a with
    | ⟨0, _⟩ => exact (rhsB_0 _ _).trans hk
    | ⟨1, _⟩ => exact rhsB_1 _ _)
  rw [el, er]

/-! ## The patch matrix of the strip -/

/-- The strip's patch matrix: rows (hl, w), columns (c, s1, s2). -/
def patchRows (v0 : FVec Ideal S1x64x32x256 .f32) : FVec Ideal S2048x256 .f32 :=
  shapeCast S2048x256 (transpose S16x128x64x2x2 [1, 3, 0, 2, 4] (shapeCast S64x16x2x128x2
    (shapeCast S64x32x256 v0 shapeCasts_S1x64x32x256_S64x32x256) shapeCasts_S64x32x256_S64x16x2x128x2)
    transposes_S64x16x2x128x2_p1_3_0_2_4_S16x128x64x2x2) shapeCasts_S16x128x64x2x2_S2048x256

/-- Row hl·128 + w, column (c·2 + s1)·2 + s2, of the patch matrix is x0[0, c, 2hl + s1, 2w + s2]. -/
theorem patchRows_apply (v0 : FVec Ideal S1x64x32x256 .f32) (hl : Fin 16) (w : Fin 128) (r : Fin 2048)
    (hr : r.val = hl.val * 128 + w.val) (c : Fin 64) (s1 s2 : Fin 2) (k : Fin 256)
    (hk : k.val = (c.val * 2 + s1.val) * 2 + s2.val) :
    patchRows v0 (ix2 r k)
      = v0 (ix4 (0 : Fin 1) c (⟨2 * hl.val + s1.val, by have := hl.isLt; have := s1.isLt; omega⟩ : Fin 32)
          (⟨2 * w.val + s2.val, by have := w.isLt; have := s2.isLt; omega⟩ : Fin 256)) := by
  unfold patchRows
  refine (shapeCast_apply _ _ (ix2 r k) (ix5 hl w c s1 s2) ?_).trans ?_
  · rw [Shape.rowMajor_val_five, Shape.rowMajor_val_two]
    show (((hl.val * 128 + w.val) * 64 + c.val) * 2 + s1.val) * 2 + s2.val = r.val * 256 + k.val
    omega
  refine (transpose_apply _ _ _ (ix5 hl w c s1 s2) (ix5 c hl s1 w s2) (fun b => ?_)).trans ?_
  · match b with
    | ⟨0, _⟩ => rfl
    | ⟨1, _⟩ => rfl
    | ⟨2, _⟩ => rfl
    | ⟨3, _⟩ => rfl
    | ⟨4, _⟩ => rfl
  refine (shapeCast_apply _ _ (ix5 c hl s1 w s2)
    (ix3 c (⟨2 * hl.val + s1.val, by have := hl.isLt; have := s1.isLt; omega⟩ : Fin 32)
      (⟨2 * w.val + s2.val, by have := w.isLt; have := s2.isLt; omega⟩ : Fin 256)) ?_).trans ?_
  · rw [Shape.rowMajor_val_three, Shape.rowMajor_val_five]
    show (c.val * 32 + (2 * hl.val + s1.val)) * 256 + (2 * w.val + s2.val)
      = (((c.val * 16 + hl.val) * 2 + s1.val) * 128 + w.val) * 2 + s2.val
    omega
  refine shapeCast_apply v0 _ _ _ ?_
  rw [Shape.rowMajor_val_four, Shape.rowMajor_val_three]
  show ((0 * 64 + c.val) * 32 + (2 * hl.val + s1.val)) * 256 + (2 * w.val + s2.val)
    = (c.val * 32 + (2 * hl.val + s1.val)) * 256 + (2 * w.val + s2.val)
  omega

/-! ## The pooled residual -/

/-- The mean over each channel's four patch entries, each channel repeated twice. -/
def pooledRows (p : FVec Ideal S2048x256 .f32) : FVec Ideal S2048x128 .f32 :=
  shapeCast S2048x128 (broadcastTo S2048x64x2 (shapeCast S2048x64x1
    (divf (multiReduction .add [2] S2048x64 (shapeCast S2048x64x4 p shapeCasts_S2048x256_S2048x64x4) 0x00000000#32
        reduces_S2048x64x4_S2048x64 (.inl rfl) rfl)
      (broadcast S2048x64 (Scalar.ofBits .f32 0x40800000#32)))
    shapeCasts_S2048x64_S2048x64x1) broadcasts_S2048x64x1_S2048x64x2) shapeCasts_S2048x64x2_S2048x128

/-- Row r, column oc, of the pooled residual: the sum of the four entries of channel oc / 2, over four. -/
theorem pooledRows_apply (p : FVec Ideal S2048x256 .f32) (r : Fin 2048) (oc : Fin 128) :
    pooledRows p (ix2 r oc)
      = Ideal.div (∑ s : Fin 4, p (ix2 r (⟨oc.val / 2 * 4 + s.val, by have := oc.isLt; have := s.isLt; omega⟩ : Fin 256)))
          (Ideal.ofBits .f32 0x40800000#32) := by
  unfold pooledRows
  refine (shapeCast_apply _ _ (ix2 r oc) (ix3 r (⟨oc.val / 2, by have := oc.isLt; omega⟩ : Fin 64)
    (⟨oc.val % 2, by omega⟩ : Fin 2)) ?_).trans ?_
  · rw [Shape.rowMajor_val_three, Shape.rowMajor_val_two]
    show (r.val * 64 + oc.val / 2) * 2 + oc.val % 2 = r.val * 128 + oc.val
    omega
  refine (broadcastTo_apply _ _ (ix3 r (⟨oc.val / 2, by have := oc.isLt; omega⟩ : Fin 64) (⟨oc.val % 2, by omega⟩ : Fin 2))
    (ix3 r (⟨oc.val / 2, by have := oc.isLt; omega⟩ : Fin 64) (0 : Fin 1)) (fun a => ?_)).trans ?_
  · match a with
    | ⟨0, _⟩ => show r.val = if (2048 : Nat) = 1 then 0 else r.val; rw [if_neg (by decide)]
    | ⟨1, _⟩ => show oc.val / 2 = if (64 : Nat) = 1 then 0 else oc.val / 2; rw [if_neg (by decide)]
    | ⟨2, _⟩ => show 0 = if (1 : Nat) = 1 then 0 else oc.val % 2; rw [if_pos rfl]
  refine (shapeCast_apply _ _ (ix3 r (⟨oc.val / 2, by have := oc.isLt; omega⟩ : Fin 64) (0 : Fin 1))
    (ix2 r (⟨oc.val / 2, by have := oc.isLt; omega⟩ : Fin 64)) ?_).trans ?_
  · rw [Shape.rowMajor_val_two, Shape.rowMajor_val_three]
    show r.val * 64 + oc.val / 2 = (r.val * 64 + oc.val / 2) * 1 + 0
    omega
  show Ideal.div (multiReduction .add [2] S2048x64 (shapeCast S2048x64x4 p shapeCasts_S2048x256_S2048x64x4) 0x00000000#32
      reduces_S2048x64x4_S2048x64 (.inl rfl) rfl (ix2 r (⟨oc.val / 2, by have := oc.isLt; omega⟩ : Fin 64)))
    (Ideal.ofBits .f32 0x40800000#32) = _
  refine congrArg (fun q => Ideal.div q (Ideal.ofBits .f32 0x40800000#32)) ?_
  refine (Ideal.multiReduction_add_single (shapeCast S2048x64x4 p shapeCasts_S2048x256_S2048x64x4) 0x00000000#32
    reduces_S2048x64x4_S2048x64 (.inl rfl) rfl (ix2 r (⟨oc.val / 2, by have := oc.isLt; omega⟩ : Fin 64))).trans ?_
  refine Finset.sum_congr rfl fun s _ => ?_
  refine shapeCast_apply p _ _ _ ?_
  rw [Shape.rowMajor_val_two, Shape.rowMajor_val_three]
  show r.val * 256 + (oc.val / 2 * 4 + s.val) = (r.val * 64 + oc.val / 2) * 4 + s.val
  omega

/-! ## The two layers on the strip's rows -/

/-- A product with the [256, 512] weights plus the bias row. -/
def firstRows (p : FVec Ideal S2048x256 .f32) (x1 : FVec Ideal S256x512 .bf16) (x2 : FVec Ideal S1x512 .f32) :
    FVec Ideal S2048x512 .f32 :=
  addf (matmul dot_S2048x256_S256x512_S2048x512_1_0_0_1_n_n none (truncf .bf16 p bitsLt_bf16_f32) (shapeCast S256x512 x1 shapeCasts_S256x512_S256x512)
      (constant S2048x512 .f32 0x00000000#32))
    (broadcastTo S2048x512 (shapeCast S1x512 x2 shapeCasts_S1x512_S1x512) broadcasts_S1x512_S2048x512)

theorem firstRows_apply (p : FVec Ideal S2048x256 .f32) (x1 : FVec Ideal S256x512 .bf16) (x2 : FVec Ideal S1x512 .f32)
    (r : Fin 2048) (j : Fin 512) :
    firstRows p x1 x2 (ix2 r j) = (∑ k : Fin 256, p (ix2 r k) * x1 (ix2 k j)) + x2 (ix2 (0 : Fin 1) j) := by
  unfold firstRows
  show matmul dot_S2048x256_S256x512_S2048x512_1_0_0_1_n_n none _ _ _ (ix2 r j) + broadcastTo S2048x512 _ _ (ix2 r j) = _
  rw [matmulA_apply, broadcastTo_1b_ab_apply, shapeCast_self, shapeCast_self]
  rfl

/-- A product with the [512, 128] weights plus the bias row. -/
def secondRows (a : FVec Ideal S2048x512 .f32) (x3 : FVec Ideal S512x128 .bf16) (x4 : FVec Ideal S1x128 .f32) :
    FVec Ideal S2048x128 .f32 :=
  addf (matmul dot_S2048x512_S512x128_S2048x128_1_0_0_1_n_n none (truncf .bf16 a bitsLt_bf16_f32) (shapeCast S512x128 x3 shapeCasts_S512x128_S512x128)
      (constant S2048x128 .f32 0x00000000#32))
    (broadcastTo S2048x128 (shapeCast S1x128 x4 shapeCasts_S1x128_S1x128) broadcasts_S1x128_S2048x128)

theorem secondRows_apply (a : FVec Ideal S2048x512 .f32) (x3 : FVec Ideal S512x128 .bf16) (x4 : FVec Ideal S1x128 .f32)
    (r : Fin 2048) (oc : Fin 128) :
    secondRows a x3 x4 (ix2 r oc) = (∑ j : Fin 512, a (ix2 r j) * x3 (ix2 j oc)) + x4 (ix2 (0 : Fin 1) oc) := by
  unfold secondRows
  show matmul dot_S2048x512_S512x128_S2048x128_1_0_0_1_n_n none _ _ _ (ix2 r oc) + broadcastTo S2048x128 _ _ (ix2 r oc) = _
  rw [matmulB_apply, broadcastTo_1b_ab_apply, shapeCast_self, shapeCast_self]
  rfl

/-! ## The stored block -/

/-- The [2048, 128] rows laid out as the output block: channel first, then the strip's rows and columns. -/
def blockOf (v : FVec Ideal S2048x128 .f32) : FVec Ideal S1x128x16x128 .f32 :=
  shapeCast S1x128x16x128 (transpose S128x16x128 [2, 0, 1] (shapeCast S16x128x128 v shapeCasts_S2048x128_S16x128x128)
    transposes_S16x128x128_p2_0_1_S128x16x128) shapeCasts_S128x16x128_S1x128x16x128

theorem blockOf_apply (v : FVec Ideal S2048x128 .f32) (oc : Fin 128) (hl : Fin 16) (w : Fin 128) (r : Fin 2048)
    (hr : r.val = hl.val * 128 + w.val) :
    blockOf v (ix4 (0 : Fin 1) oc hl w) = v (ix2 r oc) := by
  unfold blockOf
  refine (shapeCast_apply _ _ (ix4 (0 : Fin 1) oc hl w) (ix3 oc hl w) ?_).trans ?_
  · rw [Shape.rowMajor_val_three, Shape.rowMajor_val_four]
    show (oc.val * 16 + hl.val) * 128 + w.val = ((0 * 128 + oc.val) * 16 + hl.val) * 128 + w.val
    omega
  refine (transpose_apply _ _ _ (ix3 oc hl w) (ix3 hl w oc) (fun b => ?_)).trans ?_
  · match b with
    | ⟨0, _⟩ => rfl
    | ⟨1, _⟩ => rfl
    | ⟨2, _⟩ => rfl
  refine shapeCast_apply v _ _ _ ?_
  rw [Shape.rowMajor_val_two, Shape.rowMajor_val_three]
  show r.val * 128 + oc.val = (hl.val * 128 + w.val) * 128 + oc.val
  omega

/-! ## The payload -/

/-- The body's stored value is these pieces composed. -/
theorem pay_eq (x0 : FVec Ideal S1x64x32x256 .f32) (x1 : FVec Ideal S256x512 .bf16) (x2 : FVec Ideal S1x512 .f32)
    (x3 : FVec Ideal S512x128 .bf16) (x4 : FVec Ideal S1x128 .f32) :
    k0_pay1 (F := Ideal) x0 x1 x2 x3 x4
      = blockOf (addf (secondRows (mulf (firstRows (patchRows x0) x1 x2) (logistic (firstRows (patchRows x0) x1 x2))) x3 x4)
          (pooledRows (patchRows x0))) := rfl

/-- THE PAYLOAD AT (0, oc, hl, w) is `core` of the strip's patches at (hl, w) and of the weight and bias blocks. -/
theorem pay_apply (x0 : FVec Ideal S1x64x32x256 .f32) (x1 : FVec Ideal S256x512 .bf16) (x2 : FVec Ideal S1x512 .f32)
    (x3 : FVec Ideal S512x128 .bf16) (x4 : FVec Ideal S1x128 .f32) (oc : Fin 128) (hl : Fin 16) (w : Fin 128) :
    k0_pay1 (F := Ideal) x0 x1 x2 x3 x4 (ix4 (0 : Fin 1) oc hl w)
      = core (fun c s => x0 (ix4 (0 : Fin 1) c
            (⟨2 * hl.val + s.val / 2, by have := hl.isLt; have := s.isLt; omega⟩ : Fin 32)
            (⟨2 * w.val + s.val % 2, by have := w.isLt; have := s.isLt; omega⟩ : Fin 256)))
          (fun j k => x1 (ix2 k j)) (fun j => x2 (ix2 (0 : Fin 1) j))
          (fun o j => x3 (ix2 j o)) (fun o => x4 (ix2 (0 : Fin 1) o)) oc := by
  have hr : (⟨hl.val * 128 + w.val, by have := hl.isLt; have := w.isLt; omega⟩ : Fin 2048).val = hl.val * 128 + w.val := rfl
  rw [pay_eq, blockOf_apply _ oc hl w _ hr]
  show secondRows _ x3 x4 (ix2 _ oc) + pooledRows (patchRows x0) (ix2 _ oc) = _
  rw [secondRows_apply, pooledRows_apply]
  unfold core
  have hfirst : ∀ j : Fin 512, firstRows (patchRows x0) x1 x2 (ix2 (⟨hl.val * 128 + w.val, by have := hl.isLt; have := w.isLt; omega⟩ : Fin 2048) j)
      = (∑ k : Fin 256, x0 (ix4 (0 : Fin 1) (⟨k.val / 4, by have := k.isLt; omega⟩ : Fin 64)
            (⟨2 * hl.val + k.val % 4 / 2, by have := hl.isLt; omega⟩ : Fin 32)
            (⟨2 * w.val + k.val % 4 % 2, by have := w.isLt; omega⟩ : Fin 256)) * x1 (ix2 k j)) + x2 (ix2 (0 : Fin 1) j) := by
    intro j
    rw [firstRows_apply]
    refine congrArg (fun q => q + x2 (ix2 (0 : Fin 1) j)) (Finset.sum_congr rfl fun k _ => ?_)
    rw [patchRows_apply x0 hl w _ hr (⟨k.val / 4, by have := k.isLt; omega⟩ : Fin 64) (⟨k.val % 4 / 2, by omega⟩ : Fin 2)
      (⟨k.val % 4 % 2, by omega⟩ : Fin 2) k (by show k.val = (k.val / 4 * 2 + k.val % 4 / 2) * 2 + k.val % 4 % 2; omega)]
  refine congrArg₂ (· + ·) (congrArg (fun q => q + x4 (ix2 (0 : Fin 1) oc)) (Finset.sum_congr rfl fun j _ => ?_)) ?_
  · show firstRows (patchRows x0) x1 x2 (ix2 _ j) * Ideal.logistic (firstRows (patchRows x0) x1 x2 (ix2 _ j)) * x3 (ix2 j oc) = _
    rw [hfirst j]
  · refine congrArg (fun q => Ideal.div q (Ideal.ofBits .f32 0x40800000#32)) (Finset.sum_congr rfl fun s _ => ?_)
    rw [patchRows_apply x0 hl w _ hr (⟨oc.val / 2, by have := oc.isLt; omega⟩ : Fin 64) (⟨s.val / 2, by have := s.isLt; omega⟩ : Fin 2)
      (⟨s.val % 2, by omega⟩ : Fin 2) _ (by show oc.val / 2 * 4 + s.val = (oc.val / 2 * 2 + s.val / 2) * 2 + s.val % 2; omega)]

end Cert.KernelIdeal.Body

end
-- ==== Proof.KernelPoint.lean ====
/-
  One grid point: what the body stores at an index of its output block is `G` of the whole arrays at the array
  index that block entry lands on.

  At grid point (tb, thi) the image window is the strip of rows thi·32 … thi·32 + 31 of image tb, all channels and
  columns; the weight and bias windows are the whole (transposed, or row-shaped) arrays; the output block is rows
  thi·16 … thi·16 + 15 of image tb, all channels and columns. Patch (hl, w) of the strip is patch (thi·16 + hl, w)
  of the image, because 2·(thi·16 + hl) = thi·32 + 2·hl.
-/
import proofs.«164744_j14516989460759_2_alg».proof.Proof.KernelPayload

noncomputable section

namespace Cert.KernelIdeal.Body

open Cert.KernelIdeal Cert.KernelIdeal.Gen Cert.PatchMlp
open Idealize.ShloMosaic Idealize.ShloMosaic.ValueIdx

theorem point_eq (X : (⟨4, ![16, 64, 256, 256]⟩ : Shape).Idx → EReal) (W1 : (⟨2, ![512, 256]⟩ : Shape).Idx → EReal)
    (B1 : (⟨1, ![512]⟩ : Shape).Idx → EReal) (W2 : (⟨2, ![128, 512]⟩ : Shape).Idx → EReal)
    (B2 : (⟨1, ![128]⟩ : Shape).Idx → EReal)
    (x0 : FVec Ideal S1x64x32x256 .f32) (x1 : FVec Ideal S256x512 .bf16) (x2 : FVec Ideal S1x512 .f32)
    (x3 : FVec Ideal S512x128 .bf16) (x4 : FVec Ideal S1x128 .f32) (tb : Fin 16) (thi : Fin 8)
    (h0 : ∀ (c : Fin 64) (yy : Fin 32) (xx : Fin 256), x0 (ix4 (0 : Fin 1) c yy xx)
      = X (ix4 tb c (⟨thi.val * 32 + yy.val, by have := thi.isLt; have := yy.isLt; omega⟩ : Fin 256) xx))
    (h1 : ∀ (k : Fin 256) (j : Fin 512), x1 (ix2 k j) = W1 (ix2 j k))
    (h2 : ∀ j : Fin 512, x2 (ix2 (0 : Fin 1) j) = B1 (ix1 j))
    (h3 : ∀ (j : Fin 512) (o : Fin 128), x3 (ix2 j o) = W2 (ix2 o j))
    (h4 : ∀ o : Fin 128, x4 (ix2 (0 : Fin 1) o) = B2 (ix1 o))
    (y : S1x128x16x128.Idx) (i : (⟨4, ![16, 128, 128, 128]⟩ : Shape).Idx)
    (e0 : (i 0).val = tb.val) (e1 : (i 1).val = (y 1).val) (e2 : (i 2).val = thi.val * 16 + (y 2).val)
    (e3 : (i 3).val = (y 3).val) :
    k0_pay1 (F := Ideal) x0 x1 x2 x3 x4 y = G X W1 B1 W2 B2 i := by
  obtain ⟨u, oc, hl, w, rfl⟩ : ∃ (u : Fin 1) (oc : Fin 128) (hl : Fin 16) (w : Fin 128), y = ix4 u oc hl w :=
    ⟨y 0, y 1, y 2, y 3, eq_ix4 y⟩
  obtain rfl : u = 0 := Subsingleton.elim _ _
  have hi : i = ix4 tb oc (⟨thi.val * 16 + hl.val, by have := thi.isLt; have := hl.isLt; omega⟩ : Fin 128) w :=
    funext fun a => Fin.ext (by
      match a with
      | ⟨0, _⟩ => exact e0
      | ⟨1, _⟩ => exact e1
      | ⟨2, _⟩ => exact e2
      | ⟨3, _⟩ => exact e3)
  rw [hi, pay_apply, G_apply, outAt_eq_core]
  refine core_congr oc (fun c s => ?_) (fun j k => h1 k j) h2 (fun j => h3 j oc) (h4 oc)
  rw [h0]
  unfold patchAt
  refine congrArg X (funext fun a => Fin.ext ?_)
  match a with
  | ⟨0, _⟩ => rfl
  | ⟨1, _⟩ => rfl
  | ⟨2, _⟩ =>
    show thi.val * 32 + (2 * hl.val + s.val / 2) = 2 * (thi.val * 16 + hl.val) + s.val / 2
    omega
  | ⟨3, _⟩ => rfl

end Cert.KernelIdeal.Body

end
-- ==== Proof.KernelValue.lean ====
/-
  The kernel's result array after the run is `Cert.PatchMlp.G` of the argument arrays.

  Before the call the host transposes the two weight matrices (and narrows them, which changes nothing on the
  extended reals) and gives each bias a leading unit axis: the region finds w1ᵀ : [256, 512], b1 : [1, 512],
  w2ᵀ : [512, 128], b2 : [1, 128]. Each of these four windows is its whole array at every grid point. The image
  window at grid point t = (tb, thi) is image tb's strip of rows thi·32 … thi·32 + 31; the output window is
  image tb's rows thi·16 … thi·16 + 15, all 128 channels and columns. By the one-point lemma the block written
  back at t is block t of `G`; the 16 · 8 output blocks tile the [16, 128, 128, 128] array (index (b, oc, h, w)
  lies in the block of point (b, h / 16)), so the array ends holding `G`.
-/
import proofs.«164744_j14516989460759_2_alg».proof.Proof.Gen.KernelIdeal.Value
import proofs.«164744_j14516989460759_2_alg».proof.Proof.KernelPoint
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Cert.KernelIdeal.Value Cert.KernelIdeal.Body Cert.PatchMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The index maps over the grid -/

/-- The output window's block index at every point: (tb, 0, thi, 0) with tb < 16, thi < 8. -/
theorem out_index : ∀ t : Fin cfg0.N, win0_5.index t (0 : Fin 4) < 16 ∧ win0_5.index t (1 : Fin 4) = 0
    ∧ win0_5.index t (2 : Fin 4) < 8 ∧ win0_5.index t (3 : Fin 4) = 0 :=
  (by decide +kernel : ∀ t : Fin grid0.N, _)

/-- The image window moves with the output window. -/
theorem in_index : ∀ t : Fin cfg0.N, win0_0.index t (0 : Fin 4) = win0_5.index t (0 : Fin 4)
    ∧ win0_0.index t (1 : Fin 4) = 0 ∧ win0_0.index t (2 : Fin 4) = win0_5.index t (2 : Fin 4)
    ∧ win0_0.index t (3 : Fin 4) = 0 :=
  (by decide +kernel : ∀ t : Fin grid0.N, _)

/-- The weight and bias windows stay at their whole arrays. -/
theorem whole_index : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (image, strip) pair is some point's. -/
theorem idx_onto : ∀ (q0 : Fin 16) (q2 : Fin 8), ∃ t : Fin cfg0.N, win0_5.index t = ![q0.val, 0, q2.val, 0] :=
  (by decide +kernel : ∀ (q0 : Fin 16) (q2 : Fin 8), ∃ t : Fin grid0.N, win0_5.index t = ![q0.val, 0, q2.val, 0])

/-- The image and the strip of grid point `t`. -/
def tbOf (t : Fin cfg0.N) : Fin 16 := ⟨win0_5.index t (0 : Fin 4), (out_index t).1⟩
def thiOf (t : Fin cfg0.N) : Fin 8 := ⟨win0_5.index t (2 : Fin 4), (out_index t).2.2.1⟩

/-! ## What the region finds in the weight and bias windows -/

theorem V_w1 (c : Dev nD) : (V m c main_v1 : FVec Ideal S256x512 .bf16)
    = truncf (F := Ideal) .bf16 (transpose S256x512 [1, 0] ((m ((c : Thread nD τ).loc main_arg1)) : FVec Ideal S512x256 .f32)
        transposes_S512x256_S256x512_1_0) bitsLt_bf16_f32 := by
  dsimp only [V, hostOps0]
  after_results

theorem V_w2 (c : Dev nD) : (V m c main_v4 : FVec Ideal S1x512 .f32)
    = shapeCast S1x512 ((m ((c : Thread nD τ).loc main_arg2)) : FVec Ideal S512 .f32) shapeCasts_S512_S1x512 := by
  dsimp only [V, hostOps0]
  after_results
  rfl

theorem V_w3 (c : Dev nD) : (V m c main_v3 : FVec Ideal S512x128 .bf16)
    = truncf (F := Ideal) .bf16 (transpose S512x128 [1, 0] ((m ((c : Thread nD τ).loc main_arg3)) : FVec Ideal S128x512 .f32)
        transposes_S128x512_S512x128_1_0) bitsLt_bf16_f32 := by
  dsimp only [V, hostOps0]
  after_results

theorem V_w4 (c : Dev nD) : (V m c main_v5 : FVec Ideal S1x128 .f32)
    = shapeCast S1x128 ((m ((c : Thread nD τ).loc main_arg4)) : FVec Ideal S128 .f32) shapeCasts_S128_S1x128 := by
  dsimp only [V, hostOps0]
  after_results
  rfl

/-! ## The input blocks at a point, read at coordinates -/

/-- The image block at point t: image tb's rows thi·32 + yy. -/
theorem blk0 (c : Dev nD) (t : Fin cfg0.N) (cc : Fin 64) (yy : Fin 32) (xx : Fin 256) :
    (iblk m c 0 t : FVec Ideal S1x64x32x256 .f32) (ix4 (0 : Fin 1) cc yy xx)
      = (m ((c : Thread nD τ).loc main_arg0)) (ix4 (tbOf t) cc
          (⟨(thiOf t).val * 32 + yy.val, by have := (thiOf t).isLt; have := yy.isLt; omega⟩ : Fin 256) xx) := by
  obtain ⟨f0, f1, f2, f3⟩ := in_index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 4) * 1 + 1 * 0 = win0_5.index t (0 : Fin 4); omega
  | ⟨1, _⟩ => show win0_0.index t (1 : Fin 4) * 64 + 1 * cc.val = cc.val; omega
  | ⟨2, _⟩ => show win0_0.index t (2 : Fin 4) * 32 + 1 * yy.val = win0_5.index t (2 : Fin 4) * 32 + yy.val; omega
  | ⟨3, _⟩ => show win0_0.index t (3 : Fin 4) * 256 + 1 * xx.val = xx.val; omega

/-- The first weight block is w1 transposed. -/
theorem blk1 (c : Dev nD) (t : Fin cfg0.N) (k : Fin 256) (j : Fin 512) :
    (iblk m c 1 t : FVec Ideal S256x512 .bf16) (ix2 k j) = (m ((c : Thread nD τ).loc main_arg1)) (ix2 j k) := by
  obtain ⟨g0, g1, -⟩ := whole_index t
  unfold iblk
  rw [View.read_apply]
  show (V m c main_v1 : FVec Ideal S256x512 .bf16) _ = _
  have e : ((cfg0.win 1).blk t).view.emb (ix2 k j) = ix2 k j := funext fun a => Fin.ext (by
    match a with
    | ⟨0, _⟩ => show win0_1.index t (0 : Fin 2) * 256 + 1 * k.val = k.val; omega
    | ⟨1, _⟩ => show win0_1.index t (1 : Fin 2) * 512 + 1 * j.val = j.val; omega)
  refine (congrArg (V m c main_v1 : FVec Ideal S256x512 .bf16) e).trans ?_
  exact (congrFun (V_w1 m c) (ix2 k j)).trans (transpose_ix2_apply _ _ k j)

/-- The first bias block is b1 as a row. -/
theorem blk2 (c : Dev nD) (t : Fin cfg0.N) (j : Fin 512) :
    (iblk m c 2 t : FVec Ideal S1x512 .f32) (ix2 (0 : Fin 1) j) = (m ((c : Thread nD τ).loc main_arg2)) (ix1 j) := by
  obtain ⟨-, -, g0, g1, -⟩ := whole_index t
  unfold iblk
  rw [View.read_apply]
  show (V m c main_v4 : FVec Ideal S1x512 .f32) _ = _
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 512 + 1 * j.val = j.val; omega)
  refine (congrArg (V m c main_v4 : FVec Ideal S1x512 .f32) e).trans ?_
  exact (congrFun (V_w2 m c) (ix2 (0 : Fin 1) j)).trans (shapeCast_a_1a_apply _ _ (0 : Fin 1) j)

/-- The second weight block is w2 transposed. -/
theorem blk3 (c : Dev nD) (t : Fin cfg0.N) (j : Fin 512) (o : Fin 128) :
    (iblk m c 3 t : FVec Ideal S512x128 .bf16) (ix2 j o) = (m ((c : Thread nD τ).loc main_arg3)) (ix2 o j) := by
  obtain ⟨-, -, -, -, g0, g1, -⟩ := whole_index t
  unfold iblk
  rw [View.read_apply]
  show (V m c main_v3 : FVec Ideal S512x128 .bf16) _ = _
  have e : ((cfg0.win 3).blk t).view.emb (ix2 j o) = ix2 j o := funext fun a => Fin.ext (by
    match a with
    | ⟨0, _⟩ => show win0_3.index t (0 : Fin 2) * 512 + 1 * j.val = j.val; omega
    | ⟨1, _⟩ => show win0_3.index t (1 : Fin 2) * 128 + 1 * o.val = o.val; omega)
  refine (congrArg (V m c main_v3 : FVec Ideal S512x128 .bf16) e).trans ?_
  exact (congrFun (V_w3 m c) (ix2 j o)).trans (transpose_ix2_apply _ _ j o)

/-- The second bias block is b2 as a row. -/
theorem blk4 (c : Dev nD) (t : Fin cfg0.N) (o : Fin 128) :
    (iblk m c 4 t : FVec Ideal S1x128 .f32) (ix2 (0 : Fin 1) o) = (m ((c : Thread nD τ).loc main_arg4)) (ix1 o) := by
  obtain ⟨-, -, -, -, -, -, g0, g1⟩ := whole_index t
  unfold iblk
  rw [View.read_apply]
  show (V m c main_v5 : FVec Ideal S1x128 .f32) _ = _
  have e : ((cfg0.win 4).blk t).view.emb (ix2 (0 : Fin 1) o) = ix2 (0 : Fin 1) o := funext fun a => Fin.ext (by
    match a with
    | ⟨0, _⟩ => show win0_4.index t (0 : Fin 2) * 1 + 1 * 0 = 0; omega
    | ⟨1, _⟩ => show win0_4.index t (1 : Fin 2) * 128 + 1 * o.val = o.val; omega)
  refine (congrArg (V m c main_v5 : FVec Ideal S1x128 .f32) e).trans ?_
  exact (congrFun (V_w4 m c) (ix2 (0 : Fin 1) o)).trans (shapeCast_a_1a_apply _ _ (0 : Fin 1) o)

/-! ## From blocks to the array -/

/-- WHAT POINT `t` WRITES BACK is block `t` of `G` of the argument arrays. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed5]
  unfold out0_5
  rw [View.canon_unit_zero hz4]
  simp only [View.ld_unit_zero (S := S1x64x32x256) hz4, View.ld_unit_zero (S := S256x512) hz2,
    View.ld_unit_zero (S := S1x512) hz2, View.ld_unit_zero (S := S512x128) hz2, View.ld_unit_zero (S := S1x128) hz2]
  obtain ⟨o0, o1, o2, o3⟩ := out_index t
  funext y
  show k0_pay1 (F := Ideal) (iblk m c 0 t) (iblk m c 1 t) (iblk m c 2 t) (iblk m c 3 t) (iblk m c 4 t) y
    = (G (m ((c : Thread nD τ).loc main_arg0)) (m ((c : Thread nD τ).loc main_arg1)) (m ((c : Thread nD τ).loc main_arg2)) (m ((c : Thread nD τ).loc main_arg3)) (m ((c : Thread nD τ).loc main_arg4))) (((cfg0.win 5).blk t).view.emb y)
  have hy0 : (y 0).val < 1 := (y 0).isLt
  refine point_eq (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (tbOf t) (thiOf t)
    (blk0 m c t) (blk1 m c t) (blk2 m c t) (blk3 m c t) (blk4 m c t) y (((cfg0.win 5).blk t).view.emb y) ?_ ?_ ?_ ?_
  · show win0_5.index t (0 : Fin 4) * 1 + 1 * (y 0).val = win0_5.index t (0 : Fin 4); omega
  · show win0_5.index t (1 : Fin 4) * 128 + 1 * (y 1).val = (y 1).val; omega
  · show win0_5.index t (2 : Fin 4) * 16 + 1 * (y 2).val = win0_5.index t (2 : Fin 4) * 16 + (y 2).val; omega
  · show win0_5.index t (3 : Fin 4) * 128 + 1 * (y 3).val = (y 3).val; omega

/-- An index of the array is in point `t`'s block iff each coordinate is in the block's range on its axis. -/
theorem mem_blk (t : Fin cfg0.N) (i : S16x128x128x128.Idx) :
    i ∈ ((cfg0.win 5).blk t).view.set ↔ ∀ a : Fin 4, win0_5.index t a * S1x128x16x128.size a ≤ (i a).val
      ∧ (i a).val < win0_5.index t a * S1x128x16x128.size a + S1x128x16x128.size a := by
  show i ∈ ((View.whole main_v6).slice (win0_5.rect t)).set ↔ _
  rw [View.set_slice_whole, Rect.mem_set_unit]
  exact Iff.rfl

/-- Index (b, oc, h, w) lies in the block of the point of image b and strip h / 16. -/
theorem cover (i : S16x128x128x128.Idx) :
    ∃ t : Fin cfg0.N, (cfg0.win 5).flush t = true ∧ i ∈ ((cfg0.win 5).blk t).view.set := by
  have hi0 : (i 0).val < 16 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_5.index t (0 : Fin 4) = (i 0).val := congrFun ht 0
  have q1 : win0_5.index t (1 : Fin 4) = 0 := congrFun ht 1
  have q2 : win0_5.index t (2 : Fin 4) = (i 2).val / 16 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 128 ≤ (i 1).val ∧ (i 1).val < win0_5.index t (1 : Fin 4) * 128 + 128; omega
  | ⟨2, _⟩ => show win0_5.index t (2 : Fin 4) * 16 ≤ (i 2).val ∧ (i 2).val < win0_5.index t (2 : Fin 4) * 16 + 16; omega
  | ⟨3, _⟩ => show win0_5.index t (3 : Fin 4) * 128 ≤ (i 3).val ∧ (i 3).val < win0_5.index t (3 : Fin 4) * 128 + 128; omega

/-- THE ARRAY after the run is `G` of the argument arrays. -/
theorem final (c : Dev nD) : (dats m 0 c).arrAt 5 cfg0.N = (G (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 (G (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v6) = (G (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.lean ====
/-
  The proof of `Cert.Claim`.

  The kernel cuts a [16, 64, 256, 256] image into 2×2 patches and, at each of the 16 · 128 · 128 patch positions,
  applies to the 256 patch entries an affine layer with 512 outputs, SiLU, and an affine layer with 128 outputs,
  then adds to output channel oc the mean of the four patch entries of channel oc / 2, and writes the result
  channel first. The reference computes the same with whole-array operations: a reshape to rank six and a
  transpose for the patches, two matrix products, 1 / (1 + exp (−t)) for the logistic function, a sum over the two
  patch axes for the mean.

  On the extended reals both results are one function `G` of the five argument arrays (Proof/Spec.lean), index by
  index: the two programs lay the same sums out differently and never regroup a product with a sum, so no input
  needs to be finite.
  • The kernel's result array after the run is `G`: one grid point's stored block is a block of `G`
    (Proof/KernelPayload.lean, Proof/KernelPoint.lean), and the blocks tile the array (Proof/KernelValue.lean).
  • The reference's result is `G` (Proof/RefValue.lean).
  Each frame is the program's run with the result forgotten; the idealization rewrote no operation, so what it
  preserves is `True`.
-/
import proofs.«164744_j14516989460759_2_alg».proof.Defs
import proofs.«164744_j14516989460759_2_alg».proof.Proof.Gen.Kernel
import proofs.«164744_j14516989460759_2_alg».proof.Proof.Gen.Kernel.Skeleton
import proofs.«164744_j14516989460759_2_alg».proof.Proof.Gen.Kernel.Launch
import proofs.«164744_j14516989460759_2_alg».proof.Proof.Gen.Kernel.Points
import proofs.«164744_j14516989460759_2_alg».proof.Proof.Gen.Kernel.Frame
import proofs.«164744_j14516989460759_2_alg».proof.Proof.Gen.KernelIdeal
import proofs.«164744_j14516989460759_2_alg».proof.Proof.Gen.KernelIdeal.Skeleton
import proofs.«164744_j14516989460759_2_alg».proof.Proof.Gen.KernelIdeal.Launch
import proofs.«164744_j14516989460759_2_alg».proof.Proof.Gen.KernelIdeal.Points
import proofs.«164744_j14516989460759_2_alg».proof.Proof.Gen.KernelIdeal.Frame
import proofs.«164744_j14516989460759_2_alg».proof.Proof.Gen.ReferenceIdeal
import proofs.«164744_j14516989460759_2_alg».proof.Proof.Gen.Pre_finite_inputs
import proofs.«164744_j14516989460759_2_alg».proof.Proof.Gen.KernelIdeal.Value
import proofs.«164744_j14516989460759_2_alg».proof.Proof.Gen.ReferenceIdeal.Run
import proofs.«164744_j14516989460759_2_alg».proof.Proof.Gen.ReferenceIdeal.Read
import proofs.«164744_j14516989460759_2_alg».proof.Proof.Spec
import proofs.«164744_j14516989460759_2_alg».proof.Proof.RefValue
import proofs.«164744_j14516989460759_2_alg».proof.Proof.KernelValue
import Idealize.ShloMosaic.Adequacy
import Idealize.ShloMosaic.Init

noncomputable section

namespace Cert.Proof

open Idealize.ShloMosaic Idealize.ShloMosaic.TcCoe Idealize.SL.Sem Cert.PatchMlp

theorem frame_kernel : Cert.frame_Kernel := fun m ρ _ => Cert.Kernel.Gen.frame m ρ

theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at `G` of them. -/
theorem algebraic : Cert.algebraic_KernelIdeal_ReferenceIdeal := by
  intro m ρ m' ρ' _ hagree
  refine ⟨fun c => G (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
